-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S2x524288 : Shape := ⟨2, ![2, 524288]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S16384x32 .f32) (main_arg1 : FVec F S16384x32 .f32) (main_arg2 : FVec F S16384x16384 .f32) (main_arg3 : IVec S2x524288 32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  main_v13
-- ==== Kernel.lean ====
abbrev S16384x32 : Shape := ⟨2, ![16384, 32]⟩
abbrev S16384x16384 : Shape := ⟨2, ![16384, 16384]⟩
abbrev S2x524288 : Shape := ⟨2, ![2, 524288]⟩
abbrev S1024x2048 : Shape := ⟨2, ![1024, 2048]⟩
abbrev S1024x32 : Shape := ⟨2, ![1024, 32]⟩
abbrev S2048x32 : Shape := ⟨2, ![2048, 32]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x32 : Shape := ⟨2, ![524288, 32]⟩

abbrev nBuf : Space → Nat
  | .hbm => 23
  | .vmem => 6
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S16384x16384, .f32⟩
  | .hbm, ⟨3, _⟩ => ⟨S2x524288, .i32⟩
  | .hbm, ⟨4, _⟩ => ⟨S16384x32, .bf16⟩
  | .hbm, ⟨5, _⟩ => ⟨S16384x32, .f32⟩
  | .hbm, ⟨6, _⟩ => ⟨S1x524288, .i32⟩
  | .hbm, ⟨7, _⟩ => ⟨S524288, .i32⟩
  | .hbm, ⟨8, _⟩ => ⟨S1x524288, .i32⟩
  | .hbm, ⟨9, _⟩ => ⟨S524288, .i32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S524288x1, .i32⟩
  | .hbm, ⟨18, _⟩ => ⟨S524288x32, .f32⟩
  | .hbm, ⟨19, _⟩ => ⟨S_, .f32⟩
  | .hbm, ⟨20, _⟩ => ⟨S16384x32, .f32⟩
  | .hbm, ⟨21, _⟩ => ⟨S524288x1, .i32⟩
  | .hbm, ⟨22, _⟩ => ⟨S16384x32, .f32⟩
  | .local _ .vmem, ⟨0, _⟩ => ⟨S1024x2048, .f32⟩
  | .local _ .vmem, ⟨1, _⟩ => ⟨S1024x2048, .f32⟩
  | .local _ .vmem, ⟨2, _⟩ => ⟨S16384x32, .bf16⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  h_S2048x32 : 0 < S2048x32.numel
  shapeCasts_S2048x32_S2048x32 : S2048x32.ShapeCasts S2048x32
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x32 : S_.BroadcastsInDim S16384x32 (![] : Fin 0 → Fin S16384x32.rank)
  dot_S1024x2048_S2048x32_S1024x32_1_0_0_1_n_n_wf : DotDims.WF S1024x2048 S2048x32 S1024x32 [1] [0] [0] [1] [] []
  gather_S16384x32_S524288x1_S524288x32_1_0_n_n_0_1_132_wf : GatherDims.WF S16384x32 S524288x1 S524288x32 [1] [0] [] [0] [] 1 ![1, 32]
  scatter_S16384x32_S524288x1_S524288x32_1_0_0_1_wf : ScatterDims.WF S16384x32 S524288x1 S524288x32 [1] [0] [0] 1
  hrank0 : 0 < grid0.rank
  k0_mult1_dvd : ∀ i : grid0.Coords, 2048 ∣ (k0_mult1 i).toNat
  k0_off1_inb : ∀ i : grid0.Coords, ∀ a, (k0_off1 i) a + S2048x32.size a ≤ S16384x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S16384x32.size a
  hwx0_1 : ∀ i : grid0.Coords, EltTy.bits .bf16 = 32 ∨ (Rect.block (s := S16384x32) S16384x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S16384x32.size a
  hwx0_2 : ∀ i : grid0.Coords, EltTy.bits .f32 = 32 ∨ (Rect.block (s := S16384x32) S1024x32.size (cc0_transform_2 i) (hinb0_2 i)).WholeWords (EltTy.packing .f32)

variable [Facts₀]

def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def gather_S16384x32_S524288x1_S524288x32_1_0_n_n_0_1_132 : GatherDims S16384x32 S524288x1 S524288x32 where
  offsetDims := [1]
  collapsedSliceDims := [0]
  operandBatchingDims := []
  startIndicesBatchingDims := []
  startIndexMap := [0]
  indexVectorDim := 1
  sliceSizes := ![1, 32]
  wf := gather_S16384x32_S524288x1_S524288x32_1_0_n_n_0_1_132_wf
def scatter_S16384x32_S524288x1_S524288x32_1_0_0_1 : ScatterDims S16384x32 S524288x1 S524288x32 where
  updateWindowDims := [1]
  insertedWindowDims := [0]
  scatterDimsToOperandDims := [0]
  indexVectorDim := 1
  wf := scatter_S16384x32_S524288x1_S524288x32_1_0_0_1_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S16384x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x32 : Shape := ⟨2, ![16384, 32]⟩
abbrev S16384x16384 : Shape := ⟨2, ![16384, 16384]⟩
abbrev S2x524288 : Shape := ⟨2, ![2, 524288]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x32 : Shape := ⟨2, ![524288, 32]⟩

abbrev nBuf : Space → Nat
  | .hbm => 22
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S16384x16384, .f32⟩
  | .hbm, ⟨3, _⟩ => ⟨S2x524288, .i32⟩
  | .hbm, ⟨4, _⟩ => ⟨S16384x32, .f32⟩
  | .hbm, ⟨5, _⟩ => ⟨S1x524288, .i32⟩
  | .hbm, ⟨6, _⟩ => ⟨S524288, .i32⟩
  | .hbm, ⟨7, _⟩ => ⟨S1x524288, .i32⟩
  | .hbm, ⟨8, _⟩ => ⟨S524288, .i32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S524288x32, .f32⟩
  | .hbm, ⟨18, _⟩ => ⟨S_, .f32⟩
  | .hbm, ⟨19, _⟩ => ⟨S16384x32, .f32⟩
  | .hbm, ⟨20, _⟩ => ⟨S524288x1, .i32⟩
  | .hbm, ⟨21, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x32 : S_.BroadcastsInDim S16384x32 (![] : Fin 0 → Fin S16384x32.rank)
  dot_S16384x16384_S16384x32_S16384x32_1_0_0_1_n_n_wf : DotDims.WF S16384x16384 S16384x32 S16384x32 [1] [0] [0] [1] [] []
  gather_S16384x32_S524288x1_S524288x32_1_0_n_n_0_1_132_wf : GatherDims.WF S16384x32 S524288x1 S524288x32 [1] [0] [] [0] [] 1 ![1, 32]
  scatter_S16384x32_S524288x1_S524288x32_1_0_0_1_wf : ScatterDims.WF S16384x32 S524288x1 S524288x32 [1] [0] [0] 1

variable [Facts₀]

def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def gather_S16384x32_S524288x1_S524288x32_1_0_n_n_0_1_132 : GatherDims S16384x32 S524288x1 S524288x32 where
  offsetDims := [1]
  collapsedSliceDims := [0]
  operandBatchingDims := []
  startIndicesBatchingDims := []
  startIndexMap := [0]
  indexVectorDim := 1
  sliceSizes := ![1, 32]
  wf := gather_S16384x32_S524288x1_S524288x32_1_0_n_n_0_1_132_wf
def scatter_S16384x32_S524288x1_S524288x32_1_0_0_1 : ScatterDims S16384x32 S524288x1 S524288x32 where
  updateWindowDims := [1]
  insertedWindowDims := [0]
  scatterDimsToOperandDims := [0]
  indexVectorDim := 1
  wf := scatter_S16384x32_S524288x1_S524288x32_1_0_0_1_wf

class Facts : Prop extends Facts₀ where

variable [Facts]
-- ==== Proof.BodyCases.lean ====
/-
  What one grid point of the blocked matrix product leaves behind.

  The grid is (row tile, reduction step).  At every point the body adds to the accumulator the product of the
  point's 1024 × 2048 tile of the left matrix with 2048 rows of the resident right matrix; at the first reduction
  step the accumulator is first set to zero, and at the last one the accumulator is copied into the output tile.
  So in each of the three control cases the accumulator ends at ONE expression: the accumulation step applied to
  the tile, to the rows of the right matrix the step uses, and to what the accumulator held (zero at the first
  step); in the last case the output tile holds the same value.
-/
import proofs.«155169_j53223234732610_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyCases

open Cert.KernelIdeal Cert.KernelIdeal.Gen

variable {F : FTy → Type} [FloatOps F]

theorem zero_offsets : (![0, 0] : Fin 2 → Nat) = fun _ => 0 := funext fun a => by fin_cases a <;> rfl

/-- The 2048 rows of the resident right matrix that the reduction step of grid point `i` multiplies with. -/
abbrev rowsOfStep (i : grid0.Coords) (x1 : Vec F S16384x32 .bf16) : Vec F S2048x32 .bf16 :=
  View.ld x1 (Rect.unit (s := S16384x32) (k0_off1 i) S2048x32.size (k0_off1_inb i))

/-- A middle reduction step: the accumulator, holding `acc`, ends at the accumulation step of `acc`. -/
theorem acc_middle (c : Dev nD) (i : grid0.Coords) (a2 : Memref sig .tc .vmem S1024x2048 .f32) (h2 : a2.IsWhole)
    (a3 : Memref sig .tc .vmem S16384x32 .bf16) (h3 : a3.IsWhole) (a4 : Memref sig .tc .vmem S1024x32 .f32) (h4 : a4.IsWhole)
    (a5 : Memref sig .tc .vmem S1024x32 .f32) (h5 : a5.IsWhole) (hc0 : ¬cond0_0 i) (hc1 : ¬cond0_1 i)
    (x0 : Vec F S1024x2048 .f32) (x1 : Vec F S16384x32 .bf16) (acc : Vec F S1024x32 .f32) :
    sout0_B_0 c i a2 h2 a3 h3 a4 h4 a5 h5 hc0 hc1 x0 x1 acc = k0_pay2 x0 (rowsOfStep i x1) acc := by
  unfold sout0_B_0
  rw [View.read_writes_eq_canon _ _ _ (scover0_B_0 c i a2 h2 a3 h3 a4 h4 a5 h5 hc0 hc1 x0 x1 acc)]
  unfold kernelRun0_B
  dsimp only
  rw [View.canon_unit_zero zero_offsets]
  simp only [View.readAt_eq_ld, h2.read_unread, h3.read_unread, h5.read_unread,
    View.ld_unit_zero (S := S1024x2048) zero_offsets, View.ld_unit_zero (S := S1024x32) zero_offsets]

/-- The first reduction step: the accumulator is zeroed and then holds the accumulation step of zero. -/
theorem acc_first (c : Dev nD) (i : grid0.Coords) (a2 : Memref sig .tc .vmem S1024x2048 .f32) (h2 : a2.IsWhole)
    (a3 : Memref sig .tc .vmem S16384x32 .bf16) (h3 : a3.IsWhole) (a4 : Memref sig .tc .vmem S1024x32 .f32) (h4 : a4.IsWhole)
    (a5 : Memref sig .tc .vmem S1024x32 .f32) (h5 : a5.IsWhole) (hc0 : cond0_0 i) (hc1 : ¬cond0_1 i)
    (x0 : Vec F S1024x2048 .f32) (x1 : Vec F S16384x32 .bf16) :
    sout0_A_0 c i a2 h2 a3 h3 a4 h4 a5 h5 hc0 hc1 x0 x1 = k0_pay2 x0 (rowsOfStep i x1) k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x32) zero_offsets, View.readCov_unit_zero (S := S1024x32) _ zero_offsets]
  simp only [View.readAt_eq_ld, h2.read_unread, h3.read_unread,
    View.ld_unit_zero (S := S1024x2048) zero_offsets]
  rfl

/-- The last reduction step: the accumulator ends at the accumulation step of what it held … -/
theorem acc_last (c : Dev nD) (i : grid0.Coords) (a2 : Memref sig .tc .vmem S1024x2048 .f32) (h2 : a2.IsWhole)
    (a3 : Memref sig .tc .vmem S16384x32 .bf16) (h3 : a3.IsWhole) (a4 : Memref sig .tc .vmem S1024x32 .f32) (h4 : a4.IsWhole)
    (a5 : Memref sig .tc .vmem S1024x32 .f32) (h5 : a5.IsWhole) (hc0 : ¬cond0_0 i) (hc1 : cond0_1 i)
    (x0 : Vec F S1024x2048 .f32) (x1 : Vec F S16384x32 .bf16) (acc : Vec F S1024x32 .f32) :
    sout0_C_0 c i a2 h2 a3 h3 a4 h4 a5 h5 hc0 hc1 x0 x1 acc = k0_pay2 x0 (rowsOfStep i x1) acc := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero zero_offsets]
  simp only [View.readAt_eq_ld, h2.read_unread, h3.read_unread, h5.read_unread,
    View.ld_unit_zero (S := S1024x2048) zero_offsets, View.ld_unit_zero (S := S1024x32) zero_offsets]
  rfl

/-- … and the output tile is a copy of it. -/
theorem out_last (c : Dev nD) (i : grid0.Coords) (a2 : Memref sig .tc .vmem S1024x2048 .f32) (h2 : a2.IsWhole)
    (a3 : Memref sig .tc .vmem S16384x32 .bf16) (h3 : a3.IsWhole) (a4 : Memref sig .tc .vmem S1024x32 .f32) (h4 : a4.IsWhole)
    (a5 : Memref sig .tc .vmem S1024x32 .f32) (h5 : a5.IsWhole) (hc0 : ¬cond0_0 i) (hc1 : cond0_1 i)
    (x0 : Vec F S1024x2048 .f32) (x1 : Vec F S16384x32 .bf16) (acc : Vec F S1024x32 .f32) :
    out0_C_2 c i a2 h2 a3 h3 a4 h4 a5 h5 hc0 hc1 x0 x1 acc = k0_pay2 x0 (rowsOfStep i x1) acc := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero zero_offsets, View.readCov_unit_zero (S := S1024x32) _ zero_offsets]
  simp only [View.readAt_eq_ld, h2.read_unread, h3.read_unread, h5.read_unread,
    View.ld_unit_zero (S := S1024x2048) zero_offsets, View.ld_unit_zero (S := S1024x32) zero_offsets]
  rfl

end Cert.KernelIdeal.BodyCases

end
-- ==== Proof.Tiles.lean ====
/-
  Where the tiles of a grid point sit in the two matrices.

  Grid point `t` is row tile `t / 8` at reduction step `t % 8`.  Its tile of the left matrix is rows
  `1024·(t/8) … 1024·(t/8) + 1023` and columns `2048·(t%8) … 2048·(t%8) + 2047`; the right matrix is resident whole,
  and the step uses its rows `2048·(t%8) … 2048·(t%8) + 2047`.  The right matrix the region finds is the second
  argument narrowed to the 16-bit format by the one host operation before the region.
-/
import proofs.«155169_j53223234732610_2_alg».proof.Proof.BodyCases
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Tiles

open Cert.KernelIdeal Cert.KernelIdeal.Gen Cert.KernelIdeal.BodyCases

variable {F : FTy → Type} [FloatOps F]
variable (m : (ℓ : Loc nD τ sig) → Buf (Elt F) ℓ)

/-- The block indices and the row offset of the reduction step at every grid point, decided over the 128 points. -/
theorem point_facts : ∀ t : Fin cfg0.N,
    win0_0.index t 0 = t.val / 8 ∧ win0_0.index t 1 = t.val % 8
    ∧ win0_1.index t 0 = 0 ∧ win0_1.index t 1 = 0
    ∧ k0_off1 (grid0.coords t) 0 = 2048 * (t.val % 8) ∧ k0_off1 (grid0.coords t) 1 = 0
    ∧ win0_2.index t 0 = t.val / 8 ∧ win0_2.index t 1 = 0 :=
  (by decide +kernel : ∀ t : Fin grid0.N,
    win0_0.index t 0 = t.val / 8 ∧ win0_0.index t 1 = t.val % 8
    ∧ win0_1.index t 0 = 0 ∧ win0_1.index t 1 = 0
    ∧ k0_off1 (grid0.coords t) 0 = 2048 * (t.val % 8) ∧ k0_off1 (grid0.coords t) 1 = 0
    ∧ win0_2.index t 0 = t.val / 8 ∧ win0_2.index t 1 = 0)

/-- The left tile of point `t` at `(p, l)` is the left matrix at row `1024·(t/8) + p`, column `2048·(t%8) + l`. -/
theorem tile_apply (c : Dev nD) (t : Fin cfg0.N) (x : S1024x2048.Idx) (k : S16384x16384.Idx)
    (hk0 : (k 0).val = 1024 * (t.val / 8) + (x 0).val) (hk1 : (k 1).val = 2048 * (t.val % 8) + (x 1).val) :
    (iblk m c 0 t : Vec F S1024x2048 .f32) x = (V m c main_arg2 : S16384x16384.Idx → Elt F .f32) k := by
  obtain ⟨h0, h1, -⟩ := point_facts t
  unfold iblk
  rw [View.read_apply]
  show V m c main_arg2 _ = V m c main_arg2 _
  congr 1
  funext a
  apply Fin.ext
  match a with
  | ⟨0, _⟩ => show win0_0.index t 0 * 1024 + 1 * (x 0).val = (k 0).val; rw [h0, hk0]; omega
  | ⟨1, _⟩ => show win0_0.index t 1 * 2048 + 1 * (x 1).val = (k 1).val; rw [h1, hk1]; omega

/-- The rows of the right matrix that point `t` multiplies with, at `(l, q)`: the right matrix at row
    `2048·(t%8) + l`, column `q`. -/
theorem rows_apply (c : Dev nD) (t : Fin cfg0.N) (x : S2048x32.Idx) (k : S16384x32.Idx)
    (hk0 : (k 0).val = 2048 * (t.val % 8) + (x 0).val) (hk1 : (k 1).val = (x 1).val) :
    rowsOfStep (grid0.coords t) (iblk m c 1 t : Vec F S16384x32 .bf16) x
      = (V m c main_call0_v0 : S16384x32.Idx → Elt F .bf16) k := by
  obtain ⟨-, -, h0, h1, o0, o1, -⟩ := point_facts t
  unfold iblk
  show (((cfg0.win 1).blk t).view.read (Elt F) (V m c (Pipeline.arrRef spec0 1))) _ = _
  rw [View.read_apply]
  show V m c main_call0_v0 _ = V m c main_call0_v0 _
  congr 1
  funext a
  apply Fin.ext
  match a with
  | ⟨0, _⟩ =>
    show win0_1.index t 0 * 16384 + 1 * (k0_off1 (grid0.coords t) 0 + 1 * (x 0).val) = (k 0).val
    rw [h0, o0, hk0]; omega
  | ⟨1, _⟩ =>
    show win0_1.index t 1 * 32 + 1 * (k0_off1 (grid0.coords t) 1 + 1 * (x 1).val) = (k 1).val
    rw [h1, o1, hk1]; omega

/-- The right matrix as the region finds it: the second argument, narrowed. -/
theorem right_eq (c : Dev nD) :
    (V m c main_call0_v0 : S16384x32.Idx → Elt F .bf16)
      = truncf .bf16 (m ((c : Thread nD τ).loc main_arg1) : S16384x32.Idx → Elt F .f32) bitsLt_bf16_f32 := by
  show StableHlo.after hostOps0 (fun b => m (c, b)) (Proc.devRef .tc main_call0_v0) = _
  after_results
  rfl

end Cert.KernelIdeal.Tiles

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.StepValue.lean ====
/-
  One accumulation step, entry by entry, on the extended reals.

  With floats read as extended reals the narrowing of the left tile to the 16-bit format is the identity and the
  matrix unit's product into a zero accumulator is a plain sum, so the step that the body applies at a grid point
  reads, at row `p` and column `q` of the 1024 × 32 accumulator,

      acc (p, q) + Σ_{l < 2048} tile (p, l) · rows (l, q),

  and the value the accumulator is reset to is zero everywhere.
-/
import proofs.«155169_j53223234732610_2_alg».proof.Proof.Gen.KernelIdeal.Skeleton
import proofs.«155169_j53223234732610_2_alg».proof.Proof.LibMatRows
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.StepValue

open Cert.KernelIdeal Cert.KernelIdeal.Gen

/-- The product record of the body: its left index takes the row from the result and the position from the
    contracted axis, its right index the position and then the column. -/
theorem lhs_row (j : S1024x32.Idx) (k : dot_S1024x2048_S2048x32_S1024x32_1_0_0_1_n_n.contr.Idx) :
    (dot_S1024x2048_S2048x32_S1024x32_1_0_0_1_n_n.lhsIdx j k 0).val = (j 0).val := by
  unfold DotDims.lhsIdx
  rw [dif_neg (show ¬(0 : Fin S1024x2048.rank) ∈ dot_S1024x2048_S2048x32_S1024x32_1_0_0_1_n_n.lhsBatch by decide),
    dif_pos (show (0 : Fin S1024x2048.rank) ∈ dot_S1024x2048_S2048x32_S1024x32_1_0_0_1_n_n.lhsNonContracting by decide)]
  rfl

theorem lhs_pos (j : S1024x32.Idx) (k : dot_S1024x2048_S2048x32_S1024x32_1_0_0_1_n_n.contr.Idx) :
    (dot_S1024x2048_S2048x32_S1024x32_1_0_0_1_n_n.lhsIdx j k 1).val = (k ⟨0, by decide⟩).val :=
  dot_S1024x2048_S2048x32_S1024x32_1_0_0_1_n_n.lhsIdx_val_of_single rfl j k

theorem rhs_pos (j : S1024x32.Idx) (k : dot_S1024x2048_S2048x32_S1024x32_1_0_0_1_n_n.contr.Idx) :
    (dot_S1024x2048_S2048x32_S1024x32_1_0_0_1_n_n.rhsIdx j k 0).val = (k ⟨0, by decide⟩).val :=
  dot_S1024x2048_S2048x32_S1024x32_1_0_0_1_n_n.rhsIdx_val_of_single rfl j k

theorem rhs_col (j : S1024x32.Idx) (k : dot_S1024x2048_S2048x32_S1024x32_1_0_0_1_n_n.contr.Idx) :
    (dot_S1024x2048_S2048x32_S1024x32_1_0_0_1_n_n.rhsIdx j k 1).val = (j 1).val := by
  unfold DotDims.rhsIdx
  rw [dif_neg (show ¬(1 : Fin S2048x32.rank) ∈ dot_S1024x2048_S2048x32_S1024x32_1_0_0_1_n_n.rhsBatch by decide),
    dif_pos (show (1 : Fin S2048x32.rank) ∈ dot_S1024x2048_S2048x32_S1024x32_1_0_0_1_n_n.rhsNonContracting by decide)]
  rfl

/-- The accumulation step at row `p` and column `q`. -/
theorem step_apply (tile : Vec Ideal S1024x2048 .f32) (rows : Vec Ideal S2048x32 .bf16) (acc : Vec Ideal S1024x32 .f32)
    (p : Fin 1024) (q : Fin 32) :
    k0_pay2 (F := Ideal) tile rows acc (ix2 p q) = acc (ix2 p q) + ∑ l : Fin 2048, tile (ix2 p l) * rows (ix2 l q) := by
  unfold k0_pay2
  rw [shapeCast_self]
  show acc (ix2 p q) + matmul (F := Ideal) dot_S1024x2048_S2048x32_S1024x32_1_0_0_1_n_n none
      (truncf .bf16 tile bitsLt_bf16_f32) (shapeCast S2048x32 rows shapeCasts_S2048x32_S2048x32)
      (constant S1024x32 .f32 0x00000000#32) (ix2 p q) = _
  rw [shapeCast_self]
  rw [Cert.MatRows.matmul_zero_apply (M := 1024) (K := 2048) (N := 32) dot_S1024x2048_S2048x32_S1024x32_1_0_0_1_n_n rfl rfl
    lhs_row lhs_pos rhs_pos rhs_col]
  rfl

/-- The value the accumulator is reset to is zero at every entry. -/
theorem reset_apply (j : S1024x32.Idx) : k0_pay1 (F := Ideal) j = 0 := by
  unfold k0_pay1
  rw [shapeCast_self]
  show Ideal.ofBits .f32 0x00000000#32 = 0
  exact Ideal.ofBits_zero_f32

end Cert.KernelIdeal.StepValue

end
-- ==== Proof.LibBlockedSum.lean ====
/-
  A sum over a long axis taken block by block.

  A kernel that walks a reduction axis of length `nb * bs` in `nb` blocks of `bs` consecutive positions, adding each
  block's partial sum into an accumulator, computes the same number as one sum over the whole axis: position `k` of the
  long axis is position `l` of block `kb` exactly when `k = kb * bs + l`.  The statement holds in any commutative
  additive monoid — in particular for extended reals, where no finiteness is needed — and is phrased for a summand
  given on the natural numbers, so that it applies whatever index types the two sides use.
-/
import Mathlib.Algebra.BigOperators.Fin
import Mathlib.Logic.Equiv.Fin.Basic

namespace Cert.LibBlockedSum

/-- Summing `f` over block `kb` and position `l` inside the block, at the flat position `kb * bs + l`, is summing `f`
    over the flat positions `0 … nb * bs - 1`. -/
theorem sum_blocks {M : Type} [AddCommMonoid M] (nb bs : ℕ) (f : ℕ → M) :
    (∑ kb : Fin nb, ∑ l : Fin bs, f (kb.val * bs + l.val)) = ∑ k : Fin (nb * bs), f k.val := by
  rw [← (finProdFinEquiv : Fin nb × Fin bs ≃ Fin (nb * bs)).sum_comp (fun k => f k.val), Fintype.sum_prod_type]
  refine Finset.sum_congr rfl fun a _ => Finset.sum_congr rfl fun b _ => ?_
  refine congrArg f ?_
  simp only [finProdFinEquiv_apply_val]
  rw [Nat.mul_comm, Nat.add_comm]

/-- The accumulator form: starting from `z` and adding the blocks' partial sums one after the other (a left fold over
    the blocks in order) ends at `z` plus the whole sum. -/
theorem foldl_blocks {M : Type} [AddCommMonoid M] (nb bs : ℕ) (f : ℕ → M) (z : M) :
    ((List.finRange nb).foldl (fun acc kb => acc + ∑ l : Fin bs, f (kb.val * bs + l.val)) z)
      = z + ∑ k : Fin (nb * bs), f k.val := by
  rw [← sum_blocks nb bs f]
  have h : ∀ (L : List (Fin nb)) (z : M),
      L.foldl (fun acc kb => acc + ∑ l : Fin bs, f (kb.val * bs + l.val)) z
        = z + (L.map fun kb => ∑ l : Fin bs, f (kb.val * bs + l.val)).sum := by
    intro L
    induction L with
    | nil => intro z; simp
    | cons a L ih => intro z; rw [List.foldl_cons, ih, List.map_cons, List.sum_cons, add_assoc]
  rw [h, ← List.ofFn_eq_map, List.sum_ofFn]

end Cert.LibBlockedSum
-- ==== Proof.Product.lean ====
/-
  The matrix product both programs compute, as one function of the two matrices.

  For a 16384 × 16384 matrix `a` and a 16384 × 32 matrix `b` of extended reals, `product a b` at `(i, q)` is
  `Σ_{k < 16384} a (i, k) · b (k, q)`.  The kernel reaches it by eight partial sums of 2048 terms each, the
  reference by one sum; `term` is the summand at a flat position of the long axis, written over the naturals
  (zero past the axis) so that the two arrangements of the sum can be compared.
-/
import Idealize.ShloMosaic.Lib.ValueIdx
import Idealize.ShloMosaic.PureOps.Ideal
import proofs.«155169_j53223234732610_2_alg».proof.Proof.LibBlockedSum

noncomputable section

open Idealize.ShloMosaic Idealize.ShloMosaic.ValueIdx

namespace Cert.Product

/-- Index sets of the three matrices. -/
abbrev Left : Type := (⟨2, ![16384, 16384]⟩ : Shape).Idx
abbrev Right : Type := (⟨2, ![16384, 32]⟩ : Shape).Idx

/-- The product at row `j 0` and column `j 1`. -/
def product (a : Left → EReal) (b : Right → EReal) : Right → EReal :=
  fun j => ∑ k : Fin 16384, a (ix2 (⟨(j 0).val, (j 0).isLt⟩ : Fin 16384) k) * b (ix2 k (⟨(j 1).val, (j 1).isLt⟩ : Fin 32))

/-- The summand of row `i`, column `q` at flat position `k` of the contracted axis. -/
def term (a : Left → EReal) (b : Right → EReal) (i : Fin 16384) (q : Fin 32) (k : ℕ) : EReal :=
  if h : k < 16384 then a (ix2 i ⟨k, h⟩) * b (ix2 ⟨k, h⟩ q) else 0

theorem term_of_lt (a : Left → EReal) (b : Right → EReal) (i : Fin 16384) (q : Fin 32) (k : ℕ) (h : k < 16384) :
    term a b i q k = a (ix2 i ⟨k, h⟩) * b (ix2 ⟨k, h⟩ q) := dif_pos h

/-- Eight partial sums over 2048 consecutive positions make up the whole sum: associativity and commutativity of
    addition on the extended reals, nothing else. -/
theorem eight_blocks (a : Left → EReal) (b : Right → EReal) (i : Fin 16384) (q : Fin 32) :
    (∑ s ∈ Finset.range 8, ∑ l : Fin 2048, term a b i q (s * 2048 + l.val)) = product a b (ix2 i q) := by
  rw [Finset.sum_range (fun s => ∑ l : Fin 2048, term a b i q (s * 2048 + l.val))]
  rw [Cert.LibBlockedSum.sum_blocks 8 2048 (term a b i q)]
  show (∑ k : Fin 16384, term a b i q k.val) = _
  unfold product
  exact Finset.sum_congr rfl fun k _ => term_of_lt a b i q k.val k.isLt

end Cert.Product

end
-- ==== Proof.Accum.lean ====
/-
  What the accumulator holds after every grid point, and what the last reduction step writes out.

  After the point at row tile `n / 8` and reduction step `n % 8`, row `p` and column `q` of the accumulator hold the
  partial sums of steps `0 … n % 8` of row `1024·(n/8) + p` of the product: at step `0` the accumulator restarts from
  zero, and each later step adds its 2048 terms to what the step before left.  By induction on the point.  At the
  last step (`n % 8 = 7`) all eight partial sums are there, so the output tile holds the product's entry.
-/
import proofs.«155169_j53223234732610_2_alg».proof.Proof.Tiles
import proofs.«155169_j53223234732610_2_alg».proof.Proof.StepValue
import proofs.«155169_j53223234732610_2_alg».proof.Proof.Product

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.BodyCases Cert.Product

variable (m : (ℓ : Loc nD τ sig) → Buf (Elt Ideal) ℓ)

/-- The left and the right matrix as the region finds them. -/
abbrev leftM (c : Dev nD) : Left → EReal := V m c main_arg2
abbrev rightM (c : Dev nD) : Right → EReal := V m c main_call0_v0

/-- The row of the product that row `p` of point `n`'s tile belongs to. -/
def rowOf (n : ℕ) (h : n < cfg0.N) (p : Fin 1024) : Fin 16384 :=
  ⟨1024 * (n / 8) + p.val, by have : cfg0.N = 128 := N_0; have := p.isLt; omega⟩

/-- The accumulation step at point `t`: it adds the 2048 terms of reduction step `t % 8`. -/
theorem step_at (c : Dev nD) (t : Fin cfg0.N) (acc : Vec Ideal S1024x32 .f32) (p : Fin 1024) (q : Fin 32) :
    k0_pay2 (F := Ideal) (iblk m c 0 t) (rowsOfStep (grid0.coords t) (iblk m c 1 t)) acc (ix2 p q)
      = acc (ix2 p q) + ∑ l : Fin 2048, term (leftM m c) (rightM m c) (rowOf t.val t.isLt p) q (t.val % 8 * 2048 + l.val) := by
  refine (StepValue.step_apply _ _ acc p q).trans ?_
  congr 1
  refine Finset.sum_congr rfl fun l _ => ?_
  have hk : t.val % 8 * 2048 + l.val < 16384 := by have := l.isLt; omega
  rw [term_of_lt _ _ _ _ _ hk]
  congr 1
  · exact Tiles.tile_apply m c t (ix2 p l) (ix2 (rowOf t.val t.isLt p) ⟨_, hk⟩) rfl
      (by show t.val % 8 * 2048 + l.val = 2048 * (t.val % 8) + l.val; omega)
  · exact Tiles.rows_apply m c t (ix2 l q) (ix2 ⟨_, hk⟩ q)
      (by show t.val % 8 * 2048 + l.val = 2048 * (t.val % 8) + l.val; omega) rfl

/-- The partial sums of reduction steps `0 … n % 8` of the row that row `p` of point `n`'s tile belongs to. -/
def partialSum (c : Dev nD) (n : ℕ) (h : n < cfg0.N) (p : Fin 1024) (q : Fin 32) : EReal :=
  ∑ s ∈ Finset.range (n % 8 + 1), ∑ l : Fin 2048,
    term (leftM m c) (rightM m c) (rowOf n h p) q (s * 2048 + l.val)

/-- At a first reduction step the accumulation step of zero is the first partial sum. -/
theorem first_step (c : Dev nD) (t : Fin cfg0.N) (h0 : t.val % 8 = 0) (p : Fin 1024) (q : Fin 32) :
    k0_pay2 (F := Ideal) (iblk m c 0 t) (rowsOfStep (grid0.coords t) (iblk m c 1 t)) (k0_pay1 (F := Ideal)) (ix2 p q)
      = partialSum m c t.val t.isLt p q := by
  refine (step_at m c t _ p q).trans ?_
  rw [StepValue.reset_apply, zero_add]
  unfold partialSum
  rw [h0, Finset.sum_range_one]

/-- At a later reduction step the accumulation step of the partial sums so far is the next partial sum. -/
theorem later_step (c : Dev nD) (t : Fin cfg0.N) (h0 : ¬t.val % 8 = 0) (hpos : t.val - 1 < cfg0.N)
    (acc : Vec Ideal S1024x32 .f32) (p : Fin 1024) (q : Fin 32)
    (hacc : acc (ix2 p q) = partialSum m c (t.val - 1) hpos p q) :
    k0_pay2 (F := Ideal) (iblk m c 0 t) (rowsOfStep (grid0.coords t) (iblk m c 1 t)) acc (ix2 p q)
      = partialSum m c t.val t.isLt p q := by
  refine (step_at m c t acc p q).trans ?_
  rw [hacc]
  unfold partialSum
  have e1 : t.val % 8 = (t.val - 1) % 8 + 1 := by omega
  have e2 : rowOf (t.val - 1) hpos p = rowOf t.val t.isLt p := Fin.ext (by
    show 1024 * ((t.val - 1) / 8) + p.val = 1024 * (t.val / 8) + p.val; omega)
  rw [e2, e1, Finset.sum_range_succ _ ((t.val - 1) % 8 + 1)]

/-- After every point the accumulator holds the partial sums of reduction steps `0 … t % 8`. -/
theorem acc_eq (c : Dev nD) : ∀ (n : ℕ) (t : Fin cfg0.N), t.val = n → ∀ (p : Fin 1024) (q : Fin 32),
    (outsAt0 m c t.val t.isLt).2 (ix2 p q) = partialSum m c t.val t.isLt p q := by
  intro n
  induction n with
  | zero =>
    intro t ht p q
    have h0 : t.val % 8 = 0 := by omega
    rw [outsAt0_A m c t h0 (by omega)]
    dsimp only
    rw [acc_first]
    exact first_step m c t h0 p q
  | succ n ih =>
    intro t ht p q
    by_cases h0 : t.val % 8 = 0
    · rw [outsAt0_A m c t h0 (by omega)]
      dsimp only
      rw [acc_first]
      exact first_step m c t h0 p q
    · have hpos : t.val - 1 < cfg0.N := Nat.lt_of_le_of_lt (Nat.sub_le _ _) t.isLt
      have hprev := ih ⟨t.val - 1, hpos⟩ (by show t.val - 1 = n; omega) p q
      by_cases h1 : t.val % 8 = 7
      · rw [outsAt0_C m c t h0 h1]
        dsimp only
        rw [acc_last]
        exact later_step m c t h0 hpos _ p q hprev
      · rw [outsAt0_B m c t h0 h1]
        dsimp only
        rw [acc_middle]
        exact later_step m c t h0 hpos _ p q hprev

/-- At a last reduction step the output tile holds the product's entries of its rows. -/
theorem out_eq (c : Dev nD) (t : Fin cfg0.N) (h7 : t.val % 8 = 7) (p : Fin 1024) (q : Fin 32) :
    (outsAt0 m c t.val t.isLt).1 (ix2 p q) = product (leftM m c) (rightM m c) (ix2 (rowOf t.val t.isLt p) q) := by
  have hpos : t.val - 1 < cfg0.N := Nat.lt_of_le_of_lt (Nat.sub_le _ _) t.isLt
  have h0 : ¬t.val % 8 = 0 := by omega
  rw [outsAt0_C m c t h0 h7]
  dsimp only
  rw [out_last]
  refine (later_step m c t h0 hpos _ p q (acc_eq m c (t.val - 1) ⟨t.val - 1, hpos⟩ rfl p q)).trans ?_
  unfold partialSum
  rw [h7]
  exact eight_blocks _ _ _ _

end Cert.KernelIdeal.Accum

end
-- ==== Proof.KernelRun.lean ====
/-
  The kernel's run, read: what its result array holds.

  Only the last reduction step of a row tile writes its output tile back, and what it writes is the product's
  entries of the tile's rows; the sixteen tiles written back cover the 16384 rows.  So after the region the
  intermediate array holds the product of the left matrix with the (narrowed) right matrix.  The host operations
  after the region then read the edge list, take the product's rows at the source users and add them into the
  rows of the destination users: `edgeSum` of the product and the edge list.
-/
import proofs.«155169_j53223234732610_2_alg».proof.Proof.Accum
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accum Cert.Product

variable (m : (ℓ : Loc nD τ sig) → Buf (Elt Ideal) ℓ) (ρ : Dev nD → PrngReg)

/-- The output tile of a last reduction step at an entry: the product at the tile's row and the same column. -/
theorem out_at (c : Dev nD) (t : Fin cfg0.N) (h7 : t.val % 8 = 7) (y : S1024x32.Idx) (k : S16384x32.Idx)
    (hk0 : (k 0).val = 1024 * (t.val / 8) + (y 0).val) (hk1 : (k 1).val = (y 1).val) :
    (outsAt0 m c t.val t.isLt).1 y = product (leftM m c) (rightM m c) k := by
  obtain ⟨p, q, rfl⟩ : ∃ (p : Fin 1024) (q : Fin 32), y = ix2 p q := ⟨y 0, y 1, eq_ix2 y⟩
  rw [out_eq m c t h7 p q]
  refine congrArg (product (leftM m c) (rightM m c)) ?_
  funext a
  apply Fin.ext
  match a with
  | ⟨0, _⟩ => exact hk0.symm
  | ⟨1, _⟩ => exact hk1.symm

/-- What a point that writes back writes: its block of the product. -/
theorem flushed_eq (c : Dev nD) (t : Fin cfg0.N) (hf : (cfg0.win 2).flush t = true) :
    (dats m 0 c).flushed 2 t = ((cfg0.win 2).blk t).view.read (Elt Ideal) (product (leftM m c) (rightM m c)) := by
  have h7 : t.val % 8 = 7 := (flush0_2 t).mp hf
  obtain ⟨-, -, -, -, -, -, i0, i1⟩ := Tiles.point_facts t
  show (cfg0.win 2).cut (grid0.coords t) ((dats m 0 c).after 2 t) = _
  rw [after0_2]
  refine funext fun y => ?_
  generalize hG : product (leftM m c) (rightM m c) = G
  rw [View.read_apply]
  show (outsAt0 m c t.val t.isLt).1 _ = G _
  subst hG
  refine out_at m c t h7 _ _ ?_ ?_
  · show win0_2.index t 0 * 1024 + 1 * (y 0).val = 1024 * (t.val / 8) + (y 0).val
    rw [i0]; omega
  · show win0_2.index t 1 * 32 + 1 * (y 1).val = (y 1).val
    rw [i1]; omega

/-- An index of the array is in point `t`'s block iff each coordinate is in the block's range on its axis. -/
theorem mem_blk (t : Fin cfg0.N) (i : S16384x32.Idx) :
    i ∈ ((cfg0.win 2).blk t).view.set ↔ ∀ a : Fin 2, win0_2.index t a * S1024x32.size a ≤ (i a).val ∧ (i a).val < win0_2.index t a * S1024x32.size a + S1024x32.size a := by
  show i ∈ ((View.whole main_v0).slice (win0_2.rect t)).set ↔ _
  rw [View.set_slice_whole, Rect.mem_set_unit]
  exact Iff.rfl

/-- After the region the intermediate array holds the product. -/
theorem final (c : Dev nD) : (dats m 0 c).arrAt 2 cfg0.N = product (leftM m c) (rightM m c) :=
  (dats m 0 c).arrAt_eq_of_cover 2 _ (flushed_eq m c) fun i => by
    have hN : cfg0.N = 128 := N_0
    have hi0 : (i 0).val < 16384 := (i 0).isLt
    have hi1 : (i 1).val < 32 := (i 1).isLt
    let t : Fin cfg0.N := ⟨8 * ((i 0).val / 1024) + 7, by omega⟩
    have hv : t.val = 8 * ((i 0).val / 1024) + 7 := rfl
    obtain ⟨-, -, -, -, -, -, i0, i1⟩ := Tiles.point_facts t
    refine ⟨t, (flush0_2 t).mpr (by omega), ?_⟩
    rw [mem_blk]
    intro a
    match a with
    | ⟨0, _⟩ =>
      show win0_2.index t 0 * 1024 ≤ (i 0).val ∧ (i 0).val < win0_2.index t 0 * 1024 + 1024
      rw [i0, hv]; omega
    | ⟨1, _⟩ =>
      show win0_2.index t 1 * 32 ≤ (i 1).val ∧ (i 1).val < win0_2.index t 1 * 32 + 32
      rw [i1]; omega

/-- The source users of the edge list: its first row. -/
abbrev sources (g : (⟨S2x524288, .i32⟩ : BufTy).Contents (Elt Ideal)) : (⟨S524288, .i32⟩ : BufTy).Contents (Elt Ideal) :=
  shapeCast S524288 (extractStridedSlice S1x524288 ![0, 0] g slices_S2x524288_S1x524288_0_0) shapeCasts_S1x524288_S524288

/-- The host operations after the region as one function of the intermediate array `fin` and the edge list `g`:
    a source index below zero is read from the end, row `src e` of `fin` is taken for every edge `e`, and the rows
    taken are added, edge after edge, into row `dst e` of a zero array. -/
def edgeSum (fin : (⟨S16384x32, .f32⟩ : BufTy).Contents (Elt Ideal)) (g : (⟨S2x524288, .i32⟩ : BufTy).Contents (Elt Ideal)) :
    (⟨S16384x32, .f32⟩ : BufTy).Contents (Elt Ideal) :=
  Host.scatterAdd (F := Ideal) scatter_S16384x32_S524288x1_S524288x32_1_0_0_1
    (broadcastInDim S16384x32 ![] bcast_S_S16384x32 (constant (F := Ideal) S_ .f32 0x00000000#32))
    (broadcastInDim S524288x1 ![0] bcast_S524288_S524288x1_0
      (shapeCast S524288 (extractStridedSlice S1x524288 ![1, 0] g slices_S2x524288_S1x524288_1_0) shapeCasts_S1x524288_S524288))
    (Host.gather gather_S16384x32_S524288x1_S524288x32_1_0_n_n_0_1_132 fin
      (broadcastInDim S524288x1 ![0] bcast_S524288_S524288x1_0
        (select (cmpi .slt (sources g) (broadcastInDim S524288 ![] bcast_S_S524288 (constantI S_ 32 0#32)))
          (addi (sources g) (broadcastInDim S524288 ![] bcast_S_S524288 (constantI S_ 32 16384#32)))
          (sources g))))

/-- The result array after the host operations that follow the region. -/
theorem tail_eq (c : Dev nD) :
    Pipeline.afterTail₀ cfgs (dats m) 0 (V0 m) [hostOps1] c main_v14
      = edgeSum (product (leftM m c) (rightM m c)) (m ((c : Thread nD τ).loc main_arg3)) := by
  have e0 : Pipeline.withArrays (cfgs 0).spec c (V0 m c) (fun w => (dats m 0 c).arrAt w (cfgs 0).N)
      (Proc.devRef .tc main_v0) = product (leftM m c) (rightM m c) :=
    (Pipeline.withArrays_arr spec0 launch0.win.arr_inj c _ _ 2).trans (final m c)
  have e3 : Pipeline.withArrays (cfgs 0).spec c (V0 m c) (fun w => (dats m 0 c).arrAt w (cfgs 0).N)
      (Proc.devRef .tc main_arg3) = m ((c : Thread nD τ).loc main_arg3) :=
    (Pipeline.withArrays_of_ne _ c (V0 m c) _ main_arg3
      (by exact (by decide : ∀ w, Pipeline.arrRef spec0 w ≠ main_arg3))).trans (V_main_arg3 m c)
  unfold Pipeline.afterTail₀
  show StableHlo.after (hostOps1 (F := Ideal)) _ (Proc.devRef .tc main_v14) = _
  after_results
  rw [e0, e3]
  rfl

/-- The left matrix the region finds is the third argument; -/
theorem left_eq (c : Dev nD) : leftM m c = m ((c : Thread nD τ).loc main_arg2) := V_main_arg2 m c

/-- the right matrix it finds is the second argument: on the extended reals narrowing changes nothing. -/
theorem right_eq (c : Dev nD) : rightM m c = m ((c : Thread nD τ).loc main_arg1) := (Tiles.right_eq m c).trans rfl

/-- The kernel's run: the result array at the edge sum of the product of the third argument with the second,
    the argument arrays unchanged. -/
theorem run : θ_run defs (onTc (τ := τ) (main (F := Ideal))) ⟨m, fun _ => 0, ρ⟩ fun r => ∀ c : Dev nD,
      r.2.mem ((c.tc : Thread nD τ).loc main_v14)
        = edgeSum (product (m ((c : Thread nD τ).loc main_arg2)) (m ((c : Thread nD τ).loc main_arg1)))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v14 (Pipeline.mem_restRefs_of main_v14 (by decide) (by decide))).trans (tail_eq m c)).trans
        (by rw [left_eq m c, right_eq m c]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.Reference.lean ====
/-
  The reference's matrix product is the same function of the two matrices.

  On the extended reals the host's product of the 16384 × 16384 matrix with the 16384 × 32 matrix reads, at
  `(i, q)`, the sum over `k` of `a (i, k) · b (k, q)`: entry by entry it is `product`.
-/
import proofs.«155169_j53223234732610_2_alg».proof.Proof.Gen.ReferenceIdeal.Read
import proofs.«155169_j53223234732610_2_alg».proof.Proof.Product

noncomputable section

open Idealize.ShloMosaic Idealize.ShloMosaic.ValueIdx

namespace Cert.ReferenceIdeal.RefValue

open Cert.ReferenceIdeal Cert.Product

/-- The reference's first stage is the product of its third argument with its second. -/
theorem dot_is_product (x1 : (⟨S16384x32, .f32⟩ : BufTy).Contents (Elt Ideal))
    (x2 : (⟨S16384x16384, .f32⟩ : BufTy).Contents (Elt Ideal)) :
    Read.val_main_v0 (F := Ideal) x1 x2 = product x2 x1 := by
  funext i
  rw [Read.val_main_v0_apply]
  unfold product
  refine Finset.sum_congr rfl fun k _ => ?_
  congr 1
  · refine congrArg x2 (funext fun a => Fin.ext ?_)
    match a with
    | ⟨0, _⟩ => rfl
    | ⟨1, _⟩ => rfl
  · refine congrArg x1 (funext fun a => Fin.ext ?_)
    match a with
    | ⟨0, _⟩ => rfl
    | ⟨1, _⟩ => rfl

end Cert.ReferenceIdeal.RefValue

end
-- ==== Proof.lean ====
/-
  The certificate of the blocked attention-times-embedding kernel against its reference.

  Both programs compute, from a 16384 × 16384 matrix of scores `a`, a 16384 × 32 matrix of embeddings `b` and a
  list of 524288 directed edges, first the product `a · b` and then, for every user, the sum of the product's rows
  of the users with an edge into it.  The second part is the same text in both programs.  The first part is where
  they differ: the reference takes each entry of the product as one sum of 16384 terms, while the kernel walks a
  grid of 16 row tiles by 8 reduction steps, keeps a 1024 × 32 accumulator that it zeroes at a tile's first step,
  adds at every step the product of a 1024 × 2048 tile of `a` with 2048 rows of `b` (narrowed to a 16-bit format,
  which on the extended reals changes nothing), and writes the accumulator out at the tile's last step.  On the
  extended reals addition is associative and commutative, so the eight partial sums of 2048 terms are the one sum
  of 16384 terms; no finiteness of the inputs is used.

  The three runs: the two kernel programs run by their generated frames, the reference by its generated run.  The
  idealization rewrote no operation, so there is nothing to preserve beyond the program's own text.
-/
import proofs.«155169_j53223234732610_2_alg».proof.Defs
import proofs.«155169_j53223234732610_2_alg».proof.Proof.Gen.Kernel
import proofs.«155169_j53223234732610_2_alg».proof.Proof.Gen.Kernel.Skeleton
import proofs.«155169_j53223234732610_2_alg».proof.Proof.Gen.Kernel.Launch
import proofs.«155169_j53223234732610_2_alg».proof.Proof.Gen.Kernel.Points
import proofs.«155169_j53223234732610_2_alg».proof.Proof.Gen.Kernel.Frame
import proofs.«155169_j53223234732610_2_alg».proof.Proof.Gen.KernelIdeal
import proofs.«155169_j53223234732610_2_alg».proof.Proof.Gen.KernelIdeal.Skeleton
import proofs.«155169_j53223234732610_2_alg».proof.Proof.Gen.KernelIdeal.Launch
import proofs.«155169_j53223234732610_2_alg».proof.Proof.Gen.KernelIdeal.Points
import proofs.«155169_j53223234732610_2_alg».proof.Proof.Gen.KernelIdeal.Frame
import proofs.«155169_j53223234732610_2_alg».proof.Proof.Gen.ReferenceIdeal
import proofs.«155169_j53223234732610_2_alg».proof.Proof.Gen.Pre_finite_inputs
import proofs.«155169_j53223234732610_2_alg».proof.Proof.Gen.ReferenceIdeal.Run
import proofs.«155169_j53223234732610_2_alg».proof.Proof.Gen.ReferenceIdeal.Read
import proofs.«155169_j53223234732610_2_alg».proof.Proof.KernelRun
import proofs.«155169_j53223234732610_2_alg».proof.Proof.Reference
import Idealize.ShloMosaic.Adequacy
import Idealize.ShloMosaic.Init

noncomputable section

namespace Cert.Proof

open Idealize.ShloMosaic Idealize.ShloMosaic.TcCoe Idealize.SL.Sem Cert.Product

/-- The reference's result as a function of its arguments is the edge sum of the product: its first stage is the
    product, and its remaining stages are the operations the kernel's program applies after its region. -/
theorem reference_result (x1 : (⟨Cert.ReferenceIdeal.S16384x32, .f32⟩ : BufTy).Contents (Elt Ideal))
    (x2 : (⟨Cert.ReferenceIdeal.S16384x16384, .f32⟩ : BufTy).Contents (Elt Ideal))
    (x3 : (⟨Cert.ReferenceIdeal.S2x524288, .i32⟩ : BufTy).Contents (Elt Ideal)) :
    Cert.ReferenceIdeal.Read.val_main_v14 (F := Ideal) x1 x2 x3 = Cert.KernelIdeal.Result.edgeSum (product x2 x1) x3 := by
  rw [← Cert.ReferenceIdeal.RefValue.dot_is_product x1 x2]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the edge sum of the product of the scores
    with the embeddings. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).2.1, (hagree c).2.2.1, (hagree c).2.2.2]
  exact reference_result _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
